-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x3x8192 : Shape := ⟨3, ![2, 3, 8192]⟩
abbrev S2x8192 : Shape := ⟨2, ![2, 8192]⟩
abbrev S2x1024x3 : Shape := ⟨3, ![2, 1024, 3]⟩
abbrev S2x3x2048 : Shape := ⟨3, ![2, 3, 2048]⟩
abbrev S2x1024 : Shape := ⟨2, ![2, 1024]⟩
abbrev S2x1024x1 : Shape := ⟨3, ![2, 1024, 1]⟩
abbrev S2x1x2048 : Shape := ⟨3, ![2, 1, 2048]⟩
abbrev S2x2048 : Shape := ⟨2, ![2, 2048]⟩
abbrev S2x1024x2048 : Shape := ⟨3, ![2, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x3x8192, .f32⟩
  | .hbm, ⟨3, _⟩ => ⟨S2x8192, .f32⟩
  | .local _ .vmem, ⟨0, _⟩ => ⟨S2x1024x3, .f32⟩
  | .local _ .vmem, ⟨1, _⟩ => ⟨S2x1024x3, .f32⟩
  | .local _ .vmem, ⟨2, _⟩ => ⟨S2x3x2048, .f32⟩
  | .local _ .vmem, ⟨3, _⟩ => ⟨S2x3x2048, .f32⟩
  | .local _ .vmem, ⟨4, _⟩ => ⟨S2x1024, .f32⟩
  | .local _ .vmem, ⟨5, _⟩ => ⟨S2x1024, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S2x8192x3_S2x3x8192_0_2_1 : S2x8192x3.Transposes [0, 2, 1] S2x3x8192
  inb_S2x1024_S2x1024_0_0 : ∀ a, (![0, 0] : Fin 2 → Nat) a + S2x1024.size a ≤ S2x1024.size a
  h_S2x1024 : 0 < S2x1024.numel
  inb_S2x1024x3_S2x1024x3_0_0_0 : ∀ a, (![0, 0, 0] : Fin 3 → Nat) a + S2x1024x3.size a ≤ S2x1024x3.size a
  h_S2x1024x3 : 0 < S2x1024x3.numel
  inb_S2x3x2048_S2x3x2048_0_0_0 : ∀ a, (![0, 0, 0] : Fin 3 → Nat) a + S2x3x2048.size a ≤ S2x3x2048.size a
  h_S2x3x2048 : 0 < S2x3x2048.numel
  shapeCasts_S2x3x2048_S2x3x2048 : S2x3x2048.ShapeCasts S2x3x2048
  slices_S2x1024x3_o0_0_0_S2x1024x1 : S2x1024x3.Slices ![0, 0, 0] S2x1024x1
  shapeCasts_S2x1024x1_S2x1024 : S2x1024x1.ShapeCasts S2x1024
  shapeCasts_S2x1024_S2x1024x1 : S2x1024.ShapeCasts S2x1024x1
  slices_S2x3x2048_o0_0_0_S2x1x2048 : S2x3x2048.Slices ![0, 0, 0] S2x1x2048
  shapeCasts_S2x1x2048_S2x2048 : S2x1x2048.ShapeCasts S2x2048
  shapeCasts_S2x2048_S2x1x2048 : S2x2048.ShapeCasts S2x1x2048
  broadcasts_S2x1024x1_S2x1024x2048 : S2x1024x1.Broadcasts S2x1024x2048
  broadcasts_S2x1x2048_S2x1024x2048 : S2x1x2048.Broadcasts S2x1024x2048
  slices_S2x1024x3_o0_0_1_S2x1024x1 : S2x1024x3.Slices ![0, 0, 1] S2x1024x1
  slices_S2x3x2048_o0_1_0_S2x1x2048 : S2x3x2048.Slices ![0, 1, 0] S2x1x2048
  slices_S2x1024x3_o0_0_2_S2x1024x1 : S2x1024x3.Slices ![0, 0, 2] S2x1024x1
  slices_S2x3x2048_o0_2_0_S2x1x2048 : S2x3x2048.Slices ![0, 2, 0] S2x1x2048
  reduces_S2x1024x2048_S2x1024 : S2x1024x2048.Reduces [2] S2x1024
  shapeCasts_S2x1024_S2x1024 : S2x1024.ShapeCasts S2x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x3.size a ≤ S2x8192x3.size a
  hwx0_0 : ∀ i : grid0.Coords, EltTy.bits .f32 = 32 ∨ (Rect.block (s := S2x8192x3) S2x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x2048.size a ≤ S2x3x8192.size a
  hwx0_1 : ∀ i : grid0.Coords, EltTy.bits .f32 = 32 ∨ (Rect.block (s := S2x3x8192) S2x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x8192.size a
  hwx0_2 : ∀ i : grid0.Coords, EltTy.bits .f32 = 32 ∨ (Rect.block (s := S2x8192) S2x1024.size (cc0_transform_2 i) (hinb0_2 i)).WholeWords (EltTy.packing .f32)

variable [Facts₀]

abbrev win0_0 : Pipeline.Window sig grid0 :=
  Pipeline.Window.ofSpec (Memref.whole main_arg1) S2x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S_, .f32⟩
  | .hbm, ⟨22, _⟩ => ⟨S2x8192, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Spec.lean ====
/-
  What both programs compute, said once, as a function of the two argument arrays.

  The arguments are two clouds of 8192 points of three coordinates, one pair per batch entry `b ∈ {0, 1}`: the
  reference cloud `x` and the queries `q`, both indexed `(b, point, coordinate)`. For a query `r` and a cloud point
  `n` the SQUARED DISTANCE is the sum over the three coordinates of the squared differences, taken in the order
  `((d₀² + d₁²) + d₂²)` on the extended reals; the result at `(b, r)` is the least of these over all 8192 cloud
  points, computed as a fold of `min` started from a value `top` (both programs start from the same word, +∞, so it
  is kept as a parameter and never evaluated).

  A fold of `min` is determined by its lower bounds: `c ≤ fold min top f` iff `c ≤ top` and `c ≤ f n` for every
  `n`. So the fold over all 8192 points is the same as folding each of the four runs of 2048 consecutive points
  separately (each from `top`) and taking the least of `top` and the four partial results, in any nesting:
  `fold_min_tiles`.
-/
import Idealize.ShloMosaic.PureOps.Ideal
import Idealize.ShloMosaic.Lib.ValueIdx

noncomputable section

namespace Cert.Nearest

open Idealize.ShloMosaic Idealize.ShloMosaic.ValueIdx

/-- Two batches of 8192 points of three extended-real coordinates, indexed `(b, point, coordinate)`. -/
abbrev Cloud : Type := (⟨3, ![2, 8192, 3]⟩ : Shape).Idx → EReal

/-- The squared distance from query `r` to cloud point `n` in batch `b`: `((d₀² + d₁²) + d₂²)` with
    `d_k = q[b, r, k] − x[b, n, k]`. -/
def sqDist (q x : Cloud) (b : Fin 2) (r n : Fin 8192) : EReal :=
  (q (ix3 b r 0) - x (ix3 b n 0)) * (q (ix3 b r 0) - x (ix3 b n 0))
    + (q (ix3 b r 1) - x (ix3 b n 1)) * (q (ix3 b r 1) - x (ix3 b n 1))
    + (q (ix3 b r 2) - x (ix3 b n 2)) * (q (ix3 b r 2) - x (ix3 b n 2))

/-- The result array: at `(b, r)` the least squared distance from query `r` to a point of the cloud, as the fold of
    `min` from `top` over the 8192 cloud points. -/
def nearest (top : EReal) (q x : Cloud) : (⟨2, ![2, 8192]⟩ : Shape).Idx → EReal :=
  fun i => (Finset.univ : Finset (Fin 8192)).fold min top fun n => sqDist q x (i 0) (i 1) n

/-- Cloud point `j` of the `k`-th run of 2048 consecutive points. -/
def inTile (k : Fin 4) (j : Fin 2048) : Fin 8192 := ⟨2048 * k.val + j.val, by have := k.isLt; have := j.isLt; omega⟩

/-- Every cloud point lies in exactly one run: `n = 2048 · (n / 2048) + n % 2048`. -/
theorem eq_inTile (n : Fin 8192) :
    n = inTile ⟨n.val / 2048, by have := n.isLt; omega⟩ ⟨n.val % 2048, Nat.mod_lt _ (by decide)⟩ :=
  Fin.ext (by show n.val = 2048 * (n.val / 2048) + n.val % 2048; omega)

/-- The least value of one run, folded from `top`. -/
def tileMin (top : EReal) (f : Fin 8192 → EReal) (k : Fin 4) : EReal :=
  (Finset.univ : Finset (Fin 2048)).fold min top fun j => f (inTile k j)

/-- The four runs' minima, combined one after the other starting from `top`, are the minimum over all points: both
    sides have the same lower bounds. -/
theorem fold_min_tiles (top : EReal) (f : Fin 8192 → EReal) :
    min (min (min (min top (tileMin top f 0)) (tileMin top f 1)) (tileMin top f 2)) (tileMin top f 3)
      = (Finset.univ : Finset (Fin 8192)).fold min top f := by
  refine eq_of_forall_le_iff fun c => ?_
  simp only [tileMin, le_min_iff, Finset.le_fold_min, Finset.mem_univ, forall_true_left]
  constructor
  · rintro ⟨⟨⟨⟨ht, -, h0⟩, -, h1⟩, -, h2⟩, -, h3⟩
    refine ⟨ht, fun n => ?_⟩
    rw [eq_inTile n]
    have hn : n.val / 2048 < 4 := by have := n.isLt; omega
    generalize hj : (⟨n.val % 2048, Nat.mod_lt _ (by decide)⟩ : Fin 2048) = j
    generalize hk : (⟨n.val / 2048, hn⟩ : Fin 4) = k
    match k with
    | ⟨0, _⟩ => exact h0 j
    | ⟨1, _⟩ => exact h1 j
    | ⟨2, _⟩ => exact h2 j
    | ⟨3, _⟩ => exact h3 j
  · rintro ⟨ht, h⟩
    exact ⟨⟨⟨⟨ht, ht, fun j => h _⟩, ht, fun j => h _⟩, ht, fun j => h _⟩, ht, fun j => h _⟩

end Cert.Nearest

end
-- ==== Proof.Finite.lean ====
/-
  The precondition, read back as the fact the algebra uses: every entry of both argument arrays is a real number.

  The precondition is the printed predicate `all (|a0| < +∞) ∧ all (|a1| < +∞)`. Each `all` is a fold of `and`, started
  from the bit 1, over the array of bits `|x| < +∞`, one per entry `x`; the whole predicate is the `and` of the two
  folds, a single bit, and the hypothesis says that bit is 1.

  Reading it back goes from the outside in:
    • an `and` of two bits is 1 only when both are, so each fold is 1;
    • a fold of `and` from 1 that comes out 1 met only 1s, so at every index the bit `|x| < +∞` is 1;
    • on the extended reals the absolute value is `max x (-x)`, the comparison's bit is 1 exactly when
      `max x (-x) < +∞` holds, and the word `0x7F800000` denotes `⊤`;
    • an extended real is `⊥`, a real number or `⊤`. For `x = ⊥` we have `-x = ⊤`, and for `x = ⊤` already `x = ⊤`:
      in both cases `max x (-x) = ⊤`, which is not below `⊤`. So `x` is a real number.
-/
import proofs.«128585_j26233660244157_2_alg».proof.Proof.Gen.Pre_finite_inputs
import Idealize.ShloMosaic.Lib.ValueIdx
import Idealize.ShloMosaic.Lib.ReduceAll
import Idealize.ShloMosaic.Lib.WordArith
import Idealize.ShloMosaic.PureOps.Ideal.Laws

namespace Cert.Nearest

open Idealize.ShloMosaic Idealize.ShloMosaic.ValueIdx

/-- The f32 word `0x7F800000` (sign 0, exponent field all ones, fraction 0) denotes `+∞`, the top of the extended
    reals. -/
theorem ofBits_posInf_f32 : Ideal.ofBits .f32 0x7F800000#32 = ⊤ := by
  simp [Ideal.ofBits, Ideal.ieee]

/-- An extended real whose absolute value `max x (-x)` is below `⊤` is a real number: of the three kinds of extended
    real, `⊥` has `-⊥ = ⊤` and `⊤` is `⊤` itself, so for both `max x (-x) = ⊤`, which is not below `⊤`. -/
theorem real_of_abs_lt_top (x : EReal) (h : max x (-x) < ⊤) : ∃ r : ℝ, x = (r : EReal) := by
  induction x using EReal.rec with
  | bot => simp at h          -- max ⊥ (-⊥) = max ⊥ ⊤ = ⊤, and ⊤ < ⊤ is false
  | coe r => exact ⟨r, rfl⟩   -- a real number is its own witness
  | top => simp at h          -- max ⊤ (-⊤) = ⊤, and ⊤ < ⊤ is false

/-- One entry's test `|x| < +∞` read back: if the bit of the comparison of `max x (-x)` against the word `0x7F800000`
    is 1, then `x` is a real number. The word is `⊤`, and the bit of `a < b` is 1 exactly when `a < b` holds. -/
theorem real_of_abs_olt_posInf (x : EReal)
    (h : Ideal.cmp .olt (max x (-x)) (Ideal.ofBits .f32 0x7F800000#32) = 1#1) : ∃ r : ℝ, x = (r : EReal) := by
  rw [ofBits_posInf_f32] at h
  have hlt : max x (-x) < ⊤ := by
    simpa only [Ideal.cmp, WordArith.ofBool_eq_one_iff, decide_eq_true_eq] using h
  exact real_of_abs_lt_top x hlt

/-- An array without axes has exactly one index (the empty tuple of coordinates), so any two of its indices are equal:
    the result of a fold over all three axes is a single bit. -/
instance scalarIdx_subsingleton : Subsingleton Cert.Pre_finite_inputs.S_.Idx :=
  ⟨fun _ _ => funext fun d => d.elim0⟩

/-- If the precondition `all (|a0| < +∞) ∧ all (|a1| < +∞)` holds (its one bit is 1), every entry of `a0` and every
    entry of `a1` is a real number. -/
theorem real_of_finite_inputs (a0 a1 : FVec Ideal Cert.Pre_finite_inputs.S2x8192x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  -- the predicate's value is an array with one entry; read the hypothesis at that entry
  have h0 := congrFun h ValueIdx.ix0
  dsimp only [Cert.Pre_finite_inputs.fn] at h0
  -- the bit is the `and` of the two folds: both folds are 1
  obtain ⟨hA, hB⟩ := IntOp.andi_eq_one.1 h0
  -- a fold of `and` that is 1 met a 1 at every index `i`; there the bit is that of `max x (-x) < +∞` at `x = a i`
  exact ⟨fun i => real_of_abs_olt_posInf (a0 i) (Host.reduce_andi_all _ _ _ _ _ hA i),
    fun i => real_of_abs_olt_posInf (a1 i) (Host.reduce_andi_all _ _ _ _ _ hB i)⟩

end Cert.Nearest
-- ==== Proof.KernelBody.lean ====
/-
  The kernel body's arithmetic, read at one entry of its output block.

  One grid step holds a block of 1024 queries (`v3`, indexed (batch, query, coordinate)) and a block of 2048 cloud
  points already transposed (`v4`, indexed (batch, coordinate, point)). For each coordinate `k` the body takes the
  query's column `v3[·, ·, k]` and the cloud's row `v4[·, k, ·]`, spreads both over the (batch, query, point) box,
  subtracts, squares, and adds the three squares in the order ((k=0) + (k=1)) + (k=2). It then takes, for each
  (batch, query), the least of these 2048 numbers — a fold of `min` from the word +∞ over the point axis — and
  stores the least of that and what the output block held before (`v39`).

  The slicing, reshaping and spreading steps only move entries: read at (b, r, j) a spread column is the block's
  entry (b, r, k) and a spread row is the entry (b, k, j). So the stored entry (b, r) is
  `min (v39 (b, r)) (fold min +∞ over j of the squared distance from query r to point j)`.
-/
import proofs.«128585_j26233660244157_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- Coordinate `o` of the queries, cut out as a column, flattened, stood up again and spread along the point axis:
    at (b, r, j) it is the block's entry (b, r, o), whatever `j`. -/
theorem query_column (v3 : Vec Ideal S2x1024x3 .f32) (o : Nat) (ho : o < 3)
    (hs : S2x1024x3.Slices ![0, 0, o] S2x1024x1) (h1 : S2x1024x1.ShapeCasts S2x1024) (h2 : S2x1024.ShapeCasts S2x1024x1)
    (hb : S2x1024x1.Broadcasts S2x1024x2048) (b : Fin 2) (r : Fin 1024) (j : Fin 2048) :
    broadcastTo S2x1024x2048 (shapeCast S2x1024x1 (shapeCast S2x1024 (extractStridedSlice S2x1024x1 ![0, 0, o] v3 hs) h1) h2) hb (ix3 b r j)
      = v3 (ix3 b r ⟨o, ho⟩) := by
  refine (broadcastTo_apply _ hb (ix3 b r j) (ix3 b r (0 : Fin 1)) fun a => ?_).trans ?_
  · match a with
    | ⟨0, _⟩ => show b.val = if (2 : Nat) = 1 then 0 else b.val; rw [if_neg (by decide)]
    | ⟨1, _⟩ => show r.val = if (1024 : Nat) = 1 then 0 else r.val; rw [if_neg (by decide)]
    | ⟨2, _⟩ => show 0 = if (1 : Nat) = 1 then 0 else j.val; rw [if_pos rfl]
  refine (shapeCast_apply _ h2 (ix3 b r (0 : Fin 1)) (ix2 b r) ?_).trans ?_
  · rw [Shape.rowMajor_val_two, Shape.rowMajor_val_three]
    show b.val * 1024 + r.val = (b.val * 1024 + r.val) * 1 + 0
    omega
  refine (shapeCast_apply _ h1 (ix2 b r) (ix3 b r (0 : Fin 1)) ?_).trans ?_
  · rw [Shape.rowMajor_val_two, Shape.rowMajor_val_three]
    show (b.val * 1024 + r.val) * 1 + 0 = b.val * 1024 + r.val
    omega
  exact extractStridedSlice_apply _ v3 hs (ix3 b r (0 : Fin 1)) (ix3 b r ⟨o, ho⟩) fun a => by
    match a with
    | ⟨0, _⟩ => show b.val = 0 + b.val; omega
    | ⟨1, _⟩ => show r.val = 0 + r.val; omega
    | ⟨2, _⟩ => show o = o + 0; omega

/-- Coordinate `o` of the cloud block, cut out as a row, flattened, laid down again and spread along the query axis:
    at (b, r, j) it is the block's entry (b, o, j), whatever `r`. -/
theorem cloud_row (v4 : Vec Ideal S2x3x2048 .f32) (o : Nat) (ho : o < 3)
    (h0 : S2x3x2048.ShapeCasts S2x3x2048) (hs : S2x3x2048.Slices ![0, o, 0] S2x1x2048) (h1 : S2x1x2048.ShapeCasts S2x2048)
    (h2 : S2x2048.ShapeCasts S2x1x2048) (hb : S2x1x2048.Broadcasts S2x1024x2048) (b : Fin 2) (r : Fin 1024) (j : Fin 2048) :
    broadcastTo S2x1024x2048 (shapeCast S2x1x2048 (shapeCast S2x2048 (extractStridedSlice S2x1x2048 ![0, o, 0] (shapeCast S2x3x2048 v4 h0) hs) h1) h2) hb (ix3 b r j)
      = v4 (ix3 b ⟨o, ho⟩ j) := by
  refine (broadcastTo_apply _ hb (ix3 b r j) (ix3 b (0 : Fin 1) j) fun a => ?_).trans ?_
  · match a with
    | ⟨0, _⟩ => show b.val = if (2 : Nat) = 1 then 0 else b.val; rw [if_neg (by decide)]
    | ⟨1, _⟩ => show 0 = if (1 : Nat) = 1 then 0 else r.val; rw [if_pos rfl]
    | ⟨2, _⟩ => show j.val = if (2048 : Nat) = 1 then 0 else j.val; rw [if_neg (by decide)]
  refine (shapeCast_apply _ h2 (ix3 b (0 : Fin 1) j) (ix2 b j) ?_).trans ?_
  · rw [Shape.rowMajor_val_two, Shape.rowMajor_val_three]
    show b.val * 2048 + j.val = (b.val * 1 + 0) * 2048 + j.val
    omega
  refine (shapeCast_apply _ h1 (ix2 b j) (ix3 b (0 : Fin 1) j) ?_).trans ?_
  · rw [Shape.rowMajor_val_two, Shape.rowMajor_val_three]
    show (b.val * 1 + 0) * 2048 + j.val = b.val * 2048 + j.val
    omega
  refine (extractStridedSlice_apply _ _ hs (ix3 b (0 : Fin 1) j) (ix3 b ⟨o, ho⟩ j) fun a => ?_).trans ?_
  · match a with
    | ⟨0, _⟩ => show b.val = 0 + b.val; omega
    | ⟨1, _⟩ => show o = o + 0; omega
    | ⟨2, _⟩ => show j.val = 0 + j.val; omega
  exact congrFun (shapeCast_self v4 h0) _

/-- The squared distance from query `r` of a query block to point `j` of a (transposed) cloud block, the three
    squares added in the body's order. -/
def blockSqDist (v3 : Vec Ideal S2x1024x3 .f32) (v4 : Vec Ideal S2x3x2048 .f32) (b : Fin 2) (r : Fin 1024) (j : Fin 2048) : EReal :=
  (v3 (ix3 b r 0) - v4 (ix3 b 0 j)) * (v3 (ix3 b r 0) - v4 (ix3 b 0 j))
    + (v3 (ix3 b r 1) - v4 (ix3 b 1 j)) * (v3 (ix3 b r 1) - v4 (ix3 b 1 j))
    + (v3 (ix3 b r 2) - v4 (ix3 b 2 j)) * (v3 (ix3 b r 2) - v4 (ix3 b 2 j))

/-- What the block is set to at the first step of a run: +∞ everywhere. -/
theorem pay1_apply (i : S2x1024.Idx) : k0_pay1 (F := Ideal) i = Ideal.ofBits .f32 0x7F800000#32 := rfl

/-- THE BODY AT AN ENTRY: the stored value at (b, r) is the least of the block's previous entry and the least squared
    distance from query `r` to the 2048 points of the cloud block. -/
theorem pay2_apply (v3 : Vec Ideal S2x1024x3 .f32) (v4 : Vec Ideal S2x3x2048 .f32) (v39 : Vec Ideal S2x1024 .f32)
    (b : Fin 2) (r : Fin 1024) :
    k0_pay2 (F := Ideal) v3 v4 v39 (ix2 b r)
      = min (v39 (ix2 b r))
          ((Finset.univ : Finset (Fin 2048)).fold min (Ideal.ofBits .f32 0x7F800000#32) (blockSqDist v3 v4 b r)) := by
  unfold k0_pay2
  refine congrArg₂ min (congrFun (shapeCast_self v39 _) _) ?_
  refine (multiReduction_minimumf_eq_fold _ _ _ _ _ _).trans ?_
  refine (Shape.Reduces.fold_filter_drop_single _ _ _ _ _).trans ?_
  refine Finset.fold_congr fun (j : Fin 2048) _ => ?_
  have hl : reduces_S2x1024x2048_S2x1024.lift (ix2 b r) j = ix3 b r j :=
    funext fun a => Fin.ext (by match a with | ⟨0, _⟩ => rfl | ⟨1, _⟩ => rfl | ⟨2, _⟩ => rfl)
  show (addf (addf _ _) _ : FVec Ideal S2x1024x2048 .f32) (reduces_S2x1024x2048_S2x1024.lift (ix2 b r) j) = _
  rw [hl]
  simp only [addf_apply, mulf_apply, subf_apply]
  rw [query_column v3 0 (by decide), query_column v3 1 (by decide), query_column v3 2 (by decide),
    cloud_row v4 0 (by decide), cloud_row v4 1 (by decide), cloud_row v4 2 (by decide)]
  rfl

end Cert.KernelIdeal.Body

end
-- ==== Proof.KernelBlocks.lean ====
/-
  The blocks the body is handed at a grid step, as entries of the argument arrays.

  The grid has 32 steps, step `t` being the pair (query tile `t / 4`, cloud tile `t % 4`): eight tiles of 1024
  queries, and for each of them four tiles of 2048 cloud points. At step `t` the body's first operand is rows
  `1024·(t/4) … 1024·(t/4) + 1023` of the query array, all batches and coordinates; its second operand is columns
  `2048·(t%4) … 2048·(t%4) + 2047` of the cloud array TRANSPOSED to (batch, coordinate, point), which one host
  operation writes before the kernel runs. A block's entry `y` is the array's entry at
  `block index × block size + y` on every axis; the block indices are decided once over the 32 steps.
-/
import proofs.«128585_j26233660244157_2_alg».proof.Proof.Gen.KernelIdeal.Frame.Runs
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A step's number is below 32. -/
theorem step_lt (t : Fin cfg0.N) : t.val < 32 := lt_of_lt_of_eq t.isLt (show cfg0.N = 32 from N_0)

/-- The query at place `r` of step `t`'s query tile. -/
def queryAt (t : Fin cfg0.N) (r : Fin 1024) : Fin 8192 := ⟨1024 * (t.val / 4) + r.val, by have := step_lt t; have := r.isLt; omega⟩

/-- The cloud point at place `j` of step `t`'s cloud tile. -/
def pointAt (t : Fin cfg0.N) (j : Fin 2048) : Fin 8192 := ⟨2048 * (t.val % 4) + j.val, by have := j.isLt; omega⟩

/-- The query window's block index at step `t` is (0, t / 4, 0). -/
theorem query_block_index : ∀ t : Fin cfg0.N, win0_0.index t (0 : Fin 3) = 0 ∧ win0_0.index t (1 : Fin 3) = t.val / 4
    ∧ win0_0.index t (2 : Fin 3) = 0 :=
  (by decide +kernel : ∀ t : Fin grid0.N, _)

/-- The cloud window's block index at step `t` is (0, 0, t % 4). -/
theorem cloud_block_index : ∀ t : Fin cfg0.N, win0_1.index t (0 : Fin 3) = 0 ∧ win0_1.index t (1 : Fin 3) = 0
    ∧ win0_1.index t (2 : Fin 3) = t.val % 4 :=
  (by decide +kernel : ∀ t : Fin grid0.N, _)

/-- THE QUERY BLOCK at step `t`: entry (b, r, d) is the query array's entry (b, 1024·(t/4) + r, d). -/
theorem query_block_apply (c : Dev nD) (t : Fin cfg0.N) (b : Fin 2) (r : Fin 1024) (d : Fin 3) :
    iblk m c 0 t (ix3 b r d) = m ((c : Thread nD τ).loc main_arg1) (ix3 b (queryAt t r) d) := by
  obtain ⟨e0, e1, e2⟩ := query_block_index t
  rw [← V_main_arg1 m c]
  show V m c main_arg1 (((cfg0.win 0).blk t).view.emb (ix3 b r d)) = V m c main_arg1 (ix3 b (queryAt t r) d)
  refine congrArg (V m c main_arg1) (funext fun a => Fin.ext ?_)
  match a with
  | ⟨0, _⟩ => show win0_0.index t (0 : Fin 3) * 2 + 1 * b.val = b.val; omega
  | ⟨1, _⟩ => show win0_0.index t (1 : Fin 3) * 1024 + 1 * r.val = 1024 * (t.val / 4) + r.val; omega
  | ⟨2, _⟩ => show win0_0.index t (2 : Fin 3) * 3 + 1 * d.val = d.val; omega

/-- The array the cloud window stages is the cloud argument transposed to (batch, coordinate, point): the one host
    operation before the kernel. -/
theorem staged_cloud (c : Dev nD) :
    (V m c main_v0 : S2x3x8192.Idx → EReal)
      = transpose S2x3x8192 [0, 2, 1] (m ((c : Thread nD τ).loc main_arg0)) Facts₀.transposes_S2x8192x3_S2x3x8192_0_2_1 := by
  dsimp only [V, hostOps0]
  after_results

/-- THE CLOUD BLOCK at step `t`: entry (b, d, j) is the cloud array's entry (b, 2048·(t%4) + j, d). -/
theorem cloud_block_apply (c : Dev nD) (t : Fin cfg0.N) (b : Fin 2) (d : Fin 3) (j : Fin 2048) :
    iblk m c 1 t (ix3 b d j) = m ((c : Thread nD τ).loc main_arg0) (ix3 b (pointAt t j) d) := by
  obtain ⟨e0, e1, e2⟩ := cloud_block_index t
  rw [← transpose_ix3_021_apply (m ((c : Thread nD τ).loc main_arg0)) Facts₀.transposes_S2x8192x3_S2x3x8192_0_2_1 b d (pointAt t j),
    ← staged_cloud m c]
  show V m c main_v0 (((cfg0.win 1).blk t).view.emb (ix3 b d j)) = V m c main_v0 (ix3 b d (pointAt t j))
  refine congrArg (V m c main_v0) (funext fun a => Fin.ext ?_)
  match a with
  | ⟨0, _⟩ => show win0_1.index t (0 : Fin 3) * 2 + 1 * b.val = b.val; omega
  | ⟨1, _⟩ => show win0_1.index t (1 : Fin 3) * 3 + 1 * d.val = d.val; omega
  | ⟨2, _⟩ => show win0_1.index t (2 : Fin 3) * 2048 + 1 * j.val = 2048 * (t.val % 4) + j.val; omega

end Cert.KernelIdeal.Blocks

end
-- ==== Proof.KernelValue.lean ====
/-
  The kernel's result array is the specification.

  The output block of query tile `q` (1024 queries) stays in place over the four consecutive grid steps
  `4q, 4q+1, 4q+2, 4q+3`, one per cloud tile of 2048 points. The first step sets every entry to +∞ and then takes
  the least of that and the tile's least squared distance; each later step takes the least of the entry and its own
  tile's least squared distance; after the fourth the block is written back. So entry (b, r) of the block written
  back is
      min (min (min (min +∞ T₀) T₁) T₂) T₃,     T_k = least squared distance from the query to the points of tile k,
  and since a fold of `min` is determined by its lower bounds this is the least squared distance over all 8192
  points (`Cert.Nearest.fold_min_tiles`). The query under entry `r` of tile `q` is query `1024·q + r`, and every
  query lies in exactly one tile, so the array after the run is `nearest` of the two argument arrays.
-/
import proofs.«128585_j26233660244157_2_alg».proof.Proof.Gen.KernelIdeal.Value
import proofs.«128585_j26233660244157_2_alg».proof.Proof.Spec
import proofs.«128585_j26233660244157_2_alg».proof.Proof.KernelBody
import proofs.«128585_j26233660244157_2_alg».proof.Proof.KernelBlocks

noncomputable section

namespace Cert.KernelIdeal.Whole

open Cert.KernelIdeal Cert.KernelIdeal.Gen Cert.KernelIdeal.Value Cert.KernelIdeal.Body Cert.KernelIdeal.Blocks Cert.Nearest
open Idealize.ShloMosaic Idealize.ShloMosaic.TcCoe Idealize.SL.Sem Idealize.ShloMosaic.ValueIdx

variable (m : (ℓ : Loc nD τ sig) → Buf (Elt Ideal) ℓ)

/-- At step `t` the squared distance the body forms from its two blocks, at (query place r, point place j), is the
    squared distance between query `1024·(t/4) + r` and cloud point `2048·(t%4) + j` of the argument arrays. -/
theorem blockSqDist_eq (c : Dev nD) (t : Fin cfg0.N) (b : Fin 2) (r : Fin 1024) (j : Fin 2048) :
    blockSqDist (iblk m c 0 t) (iblk m c 1 t) b r j
      = sqDist (m ((c : Thread nD τ).loc main_arg1)) (m ((c : Thread nD τ).loc main_arg0)) b (queryAt t r) (pointAt t j) := by
  unfold blockSqDist sqDist
  rw [query_block_apply m c t b r 0, query_block_apply m c t b r 1, query_block_apply m c t b r 2,
    cloud_block_apply m c t b 0 j, cloud_block_apply m c t b 1 j, cloud_block_apply m c t b 2 j]

/-- ONE STEP of a run, at an entry: step `4q + k` replaces entry (b, r) of the block by the least of it and the
    least squared distance from query `1024·q + r` to the points of cloud tile `k`. -/
theorem step_apply (c : Dev nD) (q k : ℕ) (hk : k < 4) (h : 4 * q + k < cfg0.N) (acc : Vec Ideal S2x1024 .f32)
    (b : Fin 2) (r : Fin 1024) (hqr : 1024 * q + r.val < 8192) :
    step2 m c (4 * q + k) h acc (ix2 b r)
      = min (acc (ix2 b r))
          (tileMin (Ideal.ofBits .f32 0x7F800000#32)
            (sqDist (m ((c : Thread nD τ).loc main_arg1)) (m ((c : Thread nD τ).loc main_arg0)) b ⟨1024 * q + r.val, hqr⟩) ⟨k, hk⟩) := by
  refine (pay2_apply (iblk m c 0 ⟨4 * q + k, h⟩) (iblk m c 1 ⟨4 * q + k, h⟩) acc b r).trans ?_
  refine congrArg (min (acc (ix2 b r))) (Finset.fold_congr fun j _ => ?_)
  rw [blockSqDist_eq m c ⟨4 * q + k, h⟩ b r j]
  have hq : queryAt ⟨4 * q + k, h⟩ r = ⟨1024 * q + r.val, hqr⟩ :=
    Fin.ext (by show 1024 * ((4 * q + k) / 4) + r.val = 1024 * q + r.val; omega)
  have hp : pointAt ⟨4 * q + k, h⟩ j = inTile ⟨k, hk⟩ j :=
    Fin.ext (by show 2048 * ((4 * q + k) % 4) + j.val = 2048 * k + j.val; omega)
  rw [hq, hp]

/-- A WHOLE RUN, at an entry: after the four steps of query tile `q`, entry (b, r) of the block is the least squared
    distance from query `1024·q + r` to all 8192 cloud points. -/
theorem run_apply (c : Dev nD) (q : ℕ) (h : 4 * q + 3 < cfg0.N) (b : Fin 2) (r : Fin 1024) (hqr : 1024 * q + r.val < 8192) :
    Pipeline.accAt (reset2 m c) (step2 m c) (4 * q) 3 h (ix2 b r)
      = (Finset.univ : Finset (Fin 8192)).fold min (Ideal.ofBits .f32 0x7F800000#32)
          (sqDist (m ((c : Thread nD τ).loc main_arg1)) (m ((c : Thread nD τ).loc main_arg0)) b ⟨1024 * q + r.val, hqr⟩) := by
  rw [← fold_min_tiles]
  show step2 m c (4 * q + 3) _ (step2 m c (4 * q + 2) _ (step2 m c (4 * q + 1) _ (step2 m c (4 * q + 0) _ (k0_pay1 (F := Ideal))))) (ix2 b r) = _
  rw [step_apply m c q 3 (by decide) _ _ b r hqr, step_apply m c q 2 (by decide) _ _ b r hqr,
    step_apply m c q 1 (by decide) _ _ b r hqr, step_apply m c q 0 (by decide) _ _ b r hqr, pay1_apply]
  rfl

/-- THE ARRAY AFTER THE RUN is the specification of the two argument arrays. -/
theorem G2_eq_nearest (c : Dev nD) :
    G2 (F := Ideal) m c
      = nearest (Ideal.ofBits .f32 0x7F800000#32) (m ((c : Thread nD τ).loc main_arg1)) (m ((c : Thread nD τ).loc main_arg0)) := by
  refine funext fun (i : S2x8192.Idx) => ?_
  obtain ⟨b, n, rfl⟩ : ∃ (b : Fin 2) (n : Fin 8192), i = ix2 b n := ⟨i 0, i 1, eq_ix2 i⟩
  have hb : b.val < 2 := b.isLt
  have hn : n.val < 8192 := n.isLt
  have hN : cfg0.N = 32 := N_0
  -- the entry's place in its block: (b, n % 1024)
  have hloc : loc2Of (ix2 b n) = ix2 b (⟨n.val % 1024, Nat.mod_lt _ (by decide)⟩ : Fin 1024) :=
    funext fun a => by
      match a with
      | ⟨0, _⟩ => exact Fin.ext (Nat.mod_eq_of_lt hb)
      | ⟨1, _⟩ => rfl
  unfold G2
  -- the run that writes the entry back: query tile n / 1024
  generalize hq : run2Of (ix2 b n) = q
  have hq' : q = n.val / 1024 := by
    rw [← hq]; show 8 * (b.val / 2 - 0) + 1 * (n.val / 1024 - 0) = _; omega
  subst hq'
  rw [dif_pos (by rw [hN]; omega), hloc,
    run_apply m c (n.val / 1024) _ b _ (by show 1024 * (n.val / 1024) + n.val % 1024 < 8192; omega)]
  -- the query under that entry is query n itself
  have hi : (⟨1024 * (n.val / 1024) + n.val % 1024, by omega⟩ : Fin 8192) = n :=
    Fin.ext (by show 1024 * (n.val / 1024) + n.val % 1024 = n.val; omega)
  rw [hi]
  rfl

end Cert.KernelIdeal.Whole

end
-- ==== Proof.RefValue.lean ====
/-
  The reference's result is the specification.

  At a batch entry `b`, a query `m` and a cloud point `n` the reference does not subtract coordinates. It forms the
  squared norm of the query, `|p|² = 0 + ((p₀p₀ + p₁p₁) + p₂p₂)`, the squared norm of the cloud point,
  `|y|² = 0 + ((y₀y₀ + y₁y₁) + y₂y₂)`, and the inner product `p·y = (p₀y₀ + p₁y₁) + p₂y₂`, and takes
  `max ((|p|² + |y|²) − 2 · (p·y)) 0`; its result at `(b, m)` is the least of these over the 8192 cloud points, a fold
  of `min` started from the word of `+∞`.

  When all six coordinates are REAL numbers the expanded form is the squared distance: `(p₀ − y₀)² + (p₁ − y₁)² +
  (p₂ − y₂)²` and `|p|² + |y|² − 2 p·y` are equal as polynomials in the six coordinates, and a sum of squares is at
  least `0`, so the `max` with `0` returns it unchanged. (The hypothesis is needed: at an infinite coordinate the expanded form
  meets `⊤ − ⊤`, while the difference of coordinates does not.) So the two folds of `min` run over the same 8192
  values from the same start, and are equal.
-/
import proofs.«128585_j26233660244157_2_alg».proof.Proof.Gen.ReferenceIdeal.Read
import proofs.«128585_j26233660244157_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The algebra, on real coordinates -/

/-- The word `0x40000000` is the number two: sign `+`, exponent field `128` (so `2¹`), significand `1.0`. -/
theorem word_two : Ideal.ofBits .f32 0x40000000#32 = ((2 : ℝ) : EReal) := by
  simp [Ideal.ofBits, Ideal.ieee, -EReal.coe_mul]; norm_num

/-- For real coordinates `|p|² + |y|² − 2 · (p·y)`, associated as the reference associates it, is the sum of the squared
    coordinate differences, associated as the specification associates it. Every operand is a real number, so each side
    is the image of a real expression (the inclusion of the reals commutes with `+`, `−`, `·` and `0`), and the two real
    expressions are equal as polynomials. -/
theorem expanded_eq_sum_sq (p0 p1 p2 y0 y1 y2 : ℝ) :
    (((0 : EReal) + (((p0 : EReal) * p0 + (p1 : EReal) * p1) + (p2 : EReal) * p2))
            + (0 + (((y0 : EReal) * y0 + (y1 : EReal) * y1) + (y2 : EReal) * y2)))
          - ((2 : ℝ) : EReal) * ((((p0 : EReal) * y0 + (p1 : EReal) * y1) + (p2 : EReal) * y2))
      = ((p0 : EReal) - y0) * ((p0 : EReal) - y0) + ((p1 : EReal) - y1) * ((p1 : EReal) - y1)
          + ((p2 : EReal) - y2) * ((p2 : EReal) - y2) := by
  rw [← EReal.coe_zero]
  simp only [← EReal.coe_mul, ← EReal.coe_add, ← EReal.coe_sub]
  exact congrArg Real.toEReal (by ring)

/-- A sum of three squares of real numbers is not negative: each `d · d` is `≥ 0` on the reals, and the inclusion of the
    reals keeps the order. -/
theorem sum_sq_nonneg (p0 p1 p2 y0 y1 y2 : ℝ) :
    (0 : EReal) ≤ ((p0 : EReal) - y0) * ((p0 : EReal) - y0) + ((p1 : EReal) - y1) * ((p1 : EReal) - y1)
          + ((p2 : EReal) - y2) * ((p2 : EReal) - y2) := by
  simp only [← EReal.coe_mul, ← EReal.coe_add, ← EReal.coe_sub]
  exact EReal.coe_nonneg.2 (add_nonneg (add_nonneg (mul_self_nonneg _) (mul_self_nonneg _)) (mul_self_nonneg _))

/-! ## Which elements of the arguments the reference reads at `(b, m, n)` -/

/-- The query's squared norm is broadcast along the cloud axis: at `(b, m, n)` its `k`-th term reads the queries at
    `(b, m, k)`, whatever `n` is. -/
theorem queryNorm_index (b : Fin 2) (m n : Fin 8192) (k : Fin 3) :
    idx_main_v1 (idx_main_v5 (idx_main_v7 (ix3 b m n : S2x8192x8192.Idx))) k = (ix3 b m k : S2x8192x3.Idx) := by
  funext a; match a with | ⟨0, _⟩ => rfl | ⟨1, _⟩ => rfl | ⟨2, _⟩ => rfl

/-- The cloud point's squared norm is broadcast along the query axis: at `(b, m, n)` its `k`-th term reads the cloud at
    `(b, n, k)`, whatever `m` is. -/
theorem cloudNorm_index (b : Fin 2) (m n : Fin 8192) (k : Fin 3) :
    idx_main_v3 (idx_main_v6 (idx_main_v8 (ix3 b m n : S2x8192x8192.Idx))) k = (ix3 b n k : S2x8192x3.Idx) := by
  funext a; match a with | ⟨0, _⟩ => rfl | ⟨1, _⟩ => rfl | ⟨2, _⟩ => rfl

/-- The inner product at `(b, m, n)` reads, in its `k`-th term, the queries at `(b, m, k)` … -/
theorem cross_index_query (b : Fin 2) (m n : Fin 8192) (k : Fin 3) :
    lidx_main_v4 (ix3 b m n : S2x8192x8192.Idx) k = (ix3 b m k : S2x8192x3.Idx) := by
  funext a; match a with | ⟨0, _⟩ => rfl | ⟨1, _⟩ => rfl | ⟨2, _⟩ => rfl

/-- … and the cloud at `(b, n, k)`. -/
theorem cross_index_cloud (b : Fin 2) (m n : Fin 8192) (k : Fin 3) :
    ridx_main_v4 (ix3 b m n : S2x8192x8192.Idx) k = (ix3 b n k : S2x8192x3.Idx) := by
  funext a; match a with | ⟨0, _⟩ => rfl | ⟨1, _⟩ => rfl | ⟨2, _⟩ => rfl

/-! ## The clamped expanded distance, one element -/

/-- The array the reference folds, read at `(b, m, n)` down to the arguments: `max ((|p|² + |y|²) − 2 · (p·y)) 0` with
    `p` the query `m` and `y` the cloud point `n` of batch `b`. Each operation is read at the index (outermost first),
    the three-term sums are written out, the operations are the extended reals' own, and the words `0x00000000` and
    `0x40000000` are the numbers `0` and `2`. -/
theorem clamped_read (x0 x1 : (⟨S2x8192x3, .f32⟩ : BufTy).Contents (Elt Ideal)) (b : Fin 2) (m n : Fin 8192) :
    val_main_v14 (F := Ideal) x0 x1 (ix3 b m n : S2x8192x8192.Idx)
      = max ((((0 : EReal)
                + ((x1 (ix3 b m 0) * x1 (ix3 b m 0) + x1 (ix3 b m 1) * x1 (ix3 b m 1)) + x1 (ix3 b m 2) * x1 (ix3 b m 2)))
              + (0 + ((x0 (ix3 b n 0) * x0 (ix3 b n 0) + x0 (ix3 b n 1) * x0 (ix3 b n 1)) + x0 (ix3 b n 2) * x0 (ix3 b n 2))))
            - ((2 : ℝ) : EReal)
                * ((x1 (ix3 b m 0) * x0 (ix3 b n 0) + x1 (ix3 b m 1) * x0 (ix3 b n 1)) + x1 (ix3 b m 2) * x0 (ix3 b n 2))) 0 := by
  simp only [val_main_v14_apply, val_main_v12_apply, val_main_v9_apply, val_main_v7_apply, val_main_v5_apply,
    val_main_v1_apply, val_main_v0_apply, val_main_cst_apply, val_main_v8_apply, val_main_v6_apply, val_main_v3_apply,
    val_main_v2_apply, val_main_cst_0_apply, val_main_v11_apply, val_main_v10_apply, val_main_cst_1_apply,
    val_main_v4_apply, val_main_v13_apply, val_main_cst_2_apply, queryNorm_index, cloudNorm_index, cross_index_query,
    cross_index_cloud, Fin.sum_univ_three, Ideal.maximumf_def, Ideal.subf_def, Ideal.addf_def, Ideal.mulf_def,
    Ideal.ofBits_def, Ideal.ofBits_zero_f32, word_two]

/-- On real entries that element is the squared distance from query `m` to cloud point `n`: name the six real
    coordinates, replace the expanded form by the sum of squared differences (`expanded_eq_sum_sq`), and drop the `max`
    with `0`, which a value `≥ 0` passes through (`sum_sq_nonneg`). -/
theorem clamped_eq_sqDist (x0 x1 : (⟨S2x8192x3, .f32⟩ : BufTy).Contents (Elt Ideal))
    (h0 : ∀ i, ∃ r : ℝ, x0 i = (r : EReal)) (h1 : ∀ i, ∃ r : ℝ, x1 i = (r : EReal)) (b : Fin 2) (m n : Fin 8192) :
    val_main_v14 (F := Ideal) x0 x1 (ix3 b m n : S2x8192x8192.Idx) = Cert.Nearest.sqDist x1 x0 b m n := by
  rw [clamped_read]
  unfold Cert.Nearest.sqDist
  obtain ⟨p0, e0⟩ := h1 (ix3 b m 0)
  obtain ⟨p1, e1⟩ := h1 (ix3 b m 1)
  obtain ⟨p2, e2⟩ := h1 (ix3 b m 2)
  obtain ⟨y0, f0⟩ := h0 (ix3 b n 0)
  obtain ⟨y1, f1⟩ := h0 (ix3 b n 1)
  obtain ⟨y2, f2⟩ := h0 (ix3 b n 2)
  rw [e0, e1, e2, f0, f1, f2, expanded_eq_sum_sq]
  exact max_eq_left (sum_sq_nonneg p0 p1 p2 y0 y1 y2)

/-! ## The fold over the cloud points -/

/-- The reduction drops the last axis: over the result index `(b, m)`, the source index with coordinate `n` on the dropped
    axis is `(b, m, n)`. -/
theorem reduced_index (h : S2x8192x8192.Reduces [2] S2x8192) (b : Fin 2) (m n : Fin 8192) :
    h.lift (ix2 b m : S2x8192.Idx) n = (ix3 b m n : S2x8192x8192.Idx) := by
  funext a; apply Fin.ext; match a with | ⟨0, _⟩ => rfl | ⟨1, _⟩ => rfl | ⟨2, _⟩ => rfl

/-- On arrays of real numbers the reference computes the specification (`x0` is the cloud, `x1` the queries). At
    `(b, m)`: `min` commutes and associates, so the reduction over the last axis is the fold of `min` from the initial
    word over the 8192 coordinates `n` of that axis, of the folded array at `(b, m, n)`; that element is the squared
    distance `sqDist x1 x0 b m n` (`clamped_eq_sqDist`); and the specification is the same fold from the same word. -/
theorem reference_eq_nearest (x0 x1 : (⟨S2x8192x3, .f32⟩ : BufTy).Contents (Elt Ideal))
    (h0 : ∀ i, ∃ r : ℝ, x0 i = (r : EReal)) (h1 : ∀ i, ∃ r : ℝ, x1 i = (r : EReal)) :
    val_main_v15 (F := Ideal) x0 x1 = Cert.Nearest.nearest (Ideal.ofBits .f32 0x7F800000#32) x1 x0 := by
  funext j
  obtain ⟨b, m, rfl⟩ : ∃ (b : Fin 2) (m : Fin 8192), j = ix2 b m := ⟨j 0, j 1, eq_ix2 j⟩
  have h : S2x8192x8192.Reduces [2] S2x8192 := by decide
  unfold val_main_v15
  rw [Host.reduce_eq_fold_single FloatOps.minimumf _ _ reducesTo_S2x8192x8192_S2x8192_d2 h h_S_]
  show (Finset.univ : Finset (Fin 8192)).fold min (Ideal.ofBits .f32 0x7F800000#32)
        (fun n => val_main_v14 (F := Ideal) x0 x1 (h.lift (ix2 b m : S2x8192.Idx) n))
      = (Finset.univ : Finset (Fin 8192)).fold min (Ideal.ofBits .f32 0x7F800000#32)
        (fun n => Cert.Nearest.sqDist x1 x0 b m n)
  refine Finset.fold_congr fun (n : Fin 8192) _ => ?_
  rw [reduced_index h b m n, clamped_eq_sqDist x0 x1 h0 h1]

end Cert.ReferenceIdeal.RefValue

end
-- ==== Proof.lean ====
/-
  The certificate: a tiled nearest-neighbour kernel against its one-line jnp reference, over the extended reals.

  Both programs take a cloud `x` and queries `q` (two batches of 8192 points of three coordinates each) and return,
  for every query, the squared distance to its nearest cloud point.

  • The kernel walks a grid of 8 query tiles × 4 cloud tiles. For a tile pair it forms the squared distance
    `Σ_k (q_k − x_k)²` directly, takes its least value over the tile's 2048 cloud points, and keeps a running
    `min` in the output block across the four cloud tiles, starting from +∞. The generated value leg gives the final
    array as the fold of these four steps; `KernelBody` reads one step at an entry, `KernelBlocks` says which
    array entries a step's blocks hold, and `KernelValue` joins the four partial minima into the minimum over all
    8192 points (a fold of `min` is determined by its lower bounds: `Spec.fold_min_tiles`).
  • The reference expands the square: `max (|q|² + |x|² − 2 q·x, 0)`, then the minimum over all cloud points. On real
    numbers `|q|² + |x|² − 2 q·x = Σ_k (q_k − x_k)² ≥ 0`, so the clamp at 0 changes nothing and the two formulas
    agree entry by entry (`RefValue`). This needs every input to be a REAL number — at an infinite coordinate the
    expanded form meets ∞ − ∞ — which is exactly what the precondition `finite_inputs` says (`Finite`).

  So from memories agreeing on the arguments both runs end with the array `Cert.Nearest.nearest` of the arguments.
  The three frame claims are the programs' runs with the result forgotten, and the idealization rewrote nothing, so
  `preserves` is trivial.
-/
import proofs.«128585_j26233660244157_2_alg».proof.Defs
import proofs.«128585_j26233660244157_2_alg».proof.Proof.Gen.Kernel.Frame
import proofs.«128585_j26233660244157_2_alg».proof.Proof.Gen.KernelIdeal.Value
import proofs.«128585_j26233660244157_2_alg».proof.Proof.Gen.Pre_finite_inputs
import proofs.«128585_j26233660244157_2_alg».proof.Proof.Gen.ReferenceIdeal.Run
import proofs.«128585_j26233660244157_2_alg».proof.Proof.Gen.ReferenceIdeal.Read
import proofs.«128585_j26233660244157_2_alg».proof.Proof.Spec
import proofs.«128585_j26233660244157_2_alg».proof.Proof.Finite
import proofs.«128585_j26233660244157_2_alg».proof.Proof.KernelValue
import proofs.«128585_j26233660244157_2_alg».proof.Proof.RefValue
import Idealize.ShloMosaic.Adequacy
import Idealize.ShloMosaic.Init

noncomputable section

namespace Cert.Proof

open Idealize.ShloMosaic Idealize.SL.Sem

/-- The idealized kernel terminates without fault and leaves its arguments as they were: its value run, the result
    forgotten. -/
theorem frame_KernelIdeal : frame_KernelIdeal := fun m ρ _ =>
  (θ_run Cert.KernelIdeal.defs _ _).mono (fun _ h c => (h c).2) (Cert.KernelIdeal.Value.run (F := Ideal) m ρ)

/-- The idealized reference terminates without fault and leaves its arguments as they were: its run, the result
    forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the two arguments, all of whose entries are finite, both programs end with the same
    array: at (b, r) the least over the 8192 cloud points of `Σ_k (q[b,r,k] − x[b,n,k])²`. The kernel by its value leg
    and the join of its four partial minima; the reference by its run, read index by index, and the expansion of the
    square on real numbers. -/
theorem algebraic_KernelIdeal_ReferenceIdeal : algebraic_KernelIdeal_ReferenceIdeal := by
  intro m ρ m' ρ' hpre hagree
  refine ⟨fun c => Cert.Nearest.nearest (Ideal.ofBits .f32 0x7F800000#32)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Whole.G2_eq_nearest m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    obtain ⟨hx, hq⟩ := Cert.Nearest.real_of_finite_inputs _ _ (hpre c)
    rw [(h c).1, Cert.ReferenceIdeal.Read.val_main_v15_eq, (hagree c).1, (hagree c).2]
    exact Cert.ReferenceIdeal.RefValue.reference_eq_nearest _ _ hx hq

/-- The five claims, under the programs' own side conditions (the generated facts): the word-level kernel's frame is
    the generated one; the ideal pass rewrote nothing, so `preserves` has nothing to state. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
